-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S2x500000 32) (main_arg3 : IVec S2x500000 32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_v13 main_v16
-- ==== Kernel.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S2x1000000 : Shape := ⟨2, ![2, 1000000]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S2000x1 : Shape := ⟨2, ![2000, 1]⟩
abbrev S2000 : Shape := ⟨1, ![2000]⟩

abbrev nBuf : Space → Nat
  | .hbm => 107
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x500000, .i32⟩
  | .hbm, ⟨3, _⟩ => ⟨S2x500000, .i32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x64, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x64, .f32⟩
  | .hbm, ⟨73, _⟩ => ⟨S1700000x1, .f32⟩
  | .hbm, ⟨74, _⟩ => ⟨S1700000x64, .f32⟩
  | .hbm, ⟨75, _⟩ => ⟨S1700000x64, .f32⟩
  | .hbm, ⟨76, _⟩ => ⟨S_, .f32⟩
  | .hbm, ⟨77, _⟩ => ⟨S100000x64, .f32⟩
  | .hbm, ⟨78, _⟩ => ⟨S1700000x1, .i32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S2x1000000, .i32⟩
  | .hbm, ⟨83, _⟩ => ⟨S1x1000000, .i32⟩
  | .hbm, ⟨84, _⟩ => ⟨S1000000, .i32⟩
  | .hbm, ⟨85, _⟩ => ⟨S_, .i32⟩
  | .hbm, ⟨86, _⟩ => ⟨S1000000, .i32⟩
  | .hbm, ⟨87, _⟩ => ⟨S1000000, .i1⟩
  | .hbm, ⟨88, _⟩ => ⟨S_, .i32⟩
  | .hbm, ⟨89, _⟩ => ⟨S1000000, .i32⟩
  | .hbm, ⟨90, _⟩ => ⟨S1000000, .i32⟩
  | .hbm, ⟨91, _⟩ => ⟨S1000000, .i32⟩
  | .hbm, ⟨92, _⟩ => ⟨S1000000x1, .i32⟩
  | .hbm, ⟨93, _⟩ => ⟨S1000000x64, .f32⟩
  | .hbm, ⟨94, _⟩ => ⟨S1x1000000, .i32⟩
  | .hbm, ⟨95, _⟩ => ⟨S1000000, .i32⟩
  | .hbm, ⟨96, _⟩ => ⟨S_, .i32⟩
  | .hbm, ⟨97, _⟩ => ⟨S1000000, .i32⟩
  | .hbm, ⟨98, _⟩ => ⟨S1000000, .i1⟩
  | .hbm, ⟨99, _⟩ => ⟨S_, .i32⟩
  | .hbm, ⟨100, _⟩ => ⟨S1000000, .i32⟩
  | .hbm, ⟨101, _⟩ => ⟨S1000000, .i32⟩
  | .hbm, ⟨102, _⟩ => ⟨S1000000, .i32⟩
  | .hbm, ⟨103, _⟩ => ⟨S1000000x1, .i32⟩
  | .hbm, ⟨104, _⟩ => ⟨S1000000x64, .f32⟩
  | .hbm, ⟨105, _⟩ => ⟨S1000000x1, .f32⟩
  | .hbm, ⟨106, _⟩ => ⟨S1000000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x1, .f32⟩
  | .local _ .vmem, ⟨25, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_11 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![500], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S2x500000_S2x500000_S2x1000000_d1 : Shape.Concatenates [S2x500000, S2x500000] S2x1000000 1
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reduces_S2000x64_S2000 : S2000x64.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S1000000x1_S1000000 : S1000000x1.ShapeCasts S1000000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1000000x1_S1000000x64_1_0_n_n_0_1_164_wf : GatherDims.WF S100000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S1000000x64.size a
  hwx4_0 : ∀ i : grid4.Coords, EltTy.bits .f32 = 32 ∨ (Rect.block (s := S1000000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S1000000x64.size a
  hwx4_1 : ∀ i : grid4.Coords, EltTy.bits .f32 = 32 ∨ (Rect.block (s := S1000000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S1000000x1.size a
  hwx4_2 : ∀ i : grid4.Coords, EltTy.bits .f32 = 32 ∨ (Rect.block (s := S1000000x1) S2000x1.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S2000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S2x1000000 : Shape := ⟨2, ![2, 1000000]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S2x1600000, .i32⟩
  | 2 => ⟨S2x500000, .i32⟩
  | 3 => ⟨S2x500000, .i32⟩
  | 4 => ⟨S128x128, .f32⟩
  | 5 => ⟨S128, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S100000x128, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x128, .f32⟩
  | 54 => ⟨S1700000x1, .f32⟩
  | 55 => ⟨S1700000x128, .f32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000, .i32⟩
  | 68 => ⟨S1700000, .i32⟩
  | 69 => ⟨S1700000, .i32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S1700000, .f32⟩
  | 99 => ⟨S100000x64, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x64, .f32⟩
  | 109 => ⟨S1700000x1, .f32⟩
  | 110 => ⟨S1700000x64, .f32⟩
  | 111 => ⟨S1700000x64, .f32⟩
  | 112 => ⟨S_, .f32⟩
  | 113 => ⟨S100000x64, .f32⟩
  | 114 => ⟨S1700000x1, .i32⟩
  | 115 => ⟨S100000x64, .f32⟩
  | 116 => ⟨S1x64, .f32⟩
  | 117 => ⟨S100000x64, .f32⟩
  | 118 => ⟨S100000x64, .f32⟩
  | 119 => ⟨S2x1000000, .i32⟩
  | 120 => ⟨S1x1000000, .i32⟩
  | 121 => ⟨S1000000, .i32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S100000x128, .f32⟩

abbrev hbmTy0_1 (i : Nat) : BufTy := match i % 128 with
  | 0 => ⟨S1000000, .i32⟩
  | 1 => ⟨S1000000x1, .i32⟩
  | 2 => ⟨S1000000x64, .f32⟩
  | 3 => ⟨S1x1000000, .i32⟩
  | 4 => ⟨S1000000, .i32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x64, .f32⟩
  | 14 => ⟨S1000000x64, .f32⟩
  | 15 => ⟨S_, .f32⟩
  | 16 => ⟨S1000000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_18 : Ref sig .tc := ⟨.hbm, 122, rfl⟩
abbrev main_v92 : Ref sig .tc := ⟨.hbm, 123, rfl⟩
abbrev main_v93 : Ref sig .tc := ⟨.hbm, 124, rfl⟩
abbrev main_c_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_c_20 : Ref sig .tc := ⟨.hbm, 133, rfl⟩
abbrev main_v101 : Ref sig .tc := ⟨.hbm, 134, rfl⟩
abbrev main_v102 : Ref sig .tc := ⟨.hbm, 135, rfl⟩
abbrev main_c_21 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_22 : Ref sig .tc := ⟨.hbm, 143, rfl⟩
abbrev main_v109 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S2x500000_S2x500000_S2x1000000_d1 : Shape.Concatenates [S2x500000, S2x500000] S2x1000000 1
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reducesTo_S1000000x64_S1000000_d1 : S1000000x64.ReducesTo [1] S1000000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1000000x1_S1000000x64_1_0_n_n_0_1_164_wf : GatherDims.WF S100000x64 S1000000x1 S1000000x64 [1] [0] [] [0] [] 1 ![1, 64]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

class Facts : Prop extends Facts₀ where

variable [Facts]
-- ==== Proof.KernelRun.lean ====
/-
  The kernel program's run with its result named.

  The program is ten segments: stretches of whole-array operations around five tiled kernels.  Every weakly fair
  execution runs them in order, and the contents of every buffer after each segment are a fold from the launch
  memory: a stretch applies its operations, a tiled kernel replaces its output array by what its blocks wrote back.
  Here the run is stated once more with the buffer of the returned value read off the last stage of that fold,
  beside the argument arrays, which end as launched.
-/
import proofs.«146141_j7069516169728_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the returned buffer then holds the last
    stage of the fold and the argument arrays are as launched. -/
theorem run_result : θ_run defs (onTc (τ := τ) (main (F := F))) ⟨m, fun _ => 0, ρ⟩ (fun r => ∀ c : Dev nD,
      r.2.mem ((c.tc : Thread nD τ).loc main_v81) = W10 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v81 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Run

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«146141_j7069516169728_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.Product1.lean ====
/-
  The first dense product, block by block.

  The node features X : [100000, 128] are cut into 50 blocks of 2000 consecutive rows; at block t the kernel
  multiplies rows 2000 t … 2000 t + 1999 of X by the whole weight matrix W : [128, 128] into a zero accumulator (the
  change of number format before the product is the identity on the extended reals) and writes the product back to
  rows 2000 t … 2000 t + 1999 of the result.  Entry (r, c) of a product depends on row r of the left factor only, so
  each written block is the same block of the one product X · W, and the 50 blocks tile the result: after the run
  the result array is X · W, the sum over k of X (r, k) · W (k, c) at every entry.
-/
import proofs.«146141_j7069516169728_1_alg».proof.Proof.Gen.KernelIdeal.Frame
import proofs.«146141_j7069516169728_1_alg».proof.Proof.LibRowBlocks
import Idealize.ShloMosaic.Lib.Pipeline.Value
set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.Lib.PlainDot Cert.Bridge

variable (V : (c : Dev nD) → (b : Ref sig .tc) → Buf (Elt Ideal) ((c : Thread nD τ).loc b))

theorem zeros2 : (![0, 0] : Fin 2 → Nat) = fun _ => 0 := funext fun a => by fin_cases a <;> rfl

/-- Block t of the left factor and of the result is row block t; the weight matrix is one block. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product of a row block, read at a block entry, is the whole product read where the entry sits. -/
theorem product0_apply (D : DotDims S100000x128 S128x128 S100000x128) (hD : D = DotDims.plain 100000 128 128)
    (X : FVec Ideal S100000x128 .f32) (W : FVec Ideal S128x128 .f32)
    (x0 : Vec Ideal S2000x128 .f32) (x1 : Vec Ideal S128x128 .f32)
    (e0 : S2000x128.Idx → S100000x128.Idx) (e1 : S128x128.Idx → S128x128.Idx) (eo : S2000x128.Idx → S100000x128.Idx)
    (hx0 : ∀ j, x0 j = X (e0 j)) (hx1 : ∀ j, x1 j = W (e1 j))
    (h0 : ∀ (y : S2000x128.Idx) (k : Fin 128), e0 (rowIdx y k) = rowIdx (eo y) k)
    (h1 : ∀ (y : S2000x128.Idx) (k : Fin 128), e1 (colIdx y k) = colIdx (eo y) k)
    (y : S2000x128.Idx) :
    k0_pay1 (F := Ideal) x0 x1 y = Host.dotGeneral (F := Ideal) (φ₁ := .f32) (φ₂ := .f32) D none X W (eo y) := by
  unfold k0_pay1
  exact dot_block (R := 2000) (N := 100000) (K := 128) (C := 128) _ rfl D hD none none X W _ _ e0 e1 eo hx0 hx1 h0 h1 y

/-- What block t writes back is block t of the whole product. -/
theorem flushed0_eq (D : DotDims S100000x128 S128x128 S100000x128) (hD : D = DotDims.plain 100000 128 128)
    (c : Dev nD) (t : Fin cfg0.N) :
    (dat0 V c).flushed 2 t = ((cfg0.win 2).blk t).view.read (Elt Ideal)
      (Host.dotGeneral (F := Ideal) (φ₁ := .f32) (φ₂ := .f32) D none (V c main_arg0 : FVec Ideal S100000x128 .f32) (V c main_arg4 : FVec Ideal S128x128 .f32)) := by
  show (cfg0.win 2).cut (grid0.coords t) ((dat0 V c).after 2 t) = _
  rw [after0_2]
  unfold out0_2
  rw [View.canon_unit_zero zeros2]
  simp only [View.ld_unit_zero (S := S2000x128) zeros2, View.ld_unit_zero (S := S128x128) zeros2]
  obtain ⟨a0, a1, b0, b1, o0, o1⟩ := blockIdx0 t
  funext j
  refine product0_apply D hD (V c main_arg0) (V c main_arg4) (iblk0 V c 0 t) (iblk0 V c 1 t)
    ((cfg0.win 0).blk t).view.emb ((cfg0.win 1).blk t).view.emb ((cfg0.win 2).blk t).view.emb
    (fun _ => rfl) (fun _ => rfl) (fun y k => ?_) (fun y k => ?_) j
  · funext a; apply Fin.ext
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega

/-- An entry of the result is in block t exactly when its row is one of the block's 2000 rows. -/
theorem mem_block0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v29).slice (win0_2.rect t)).set ↔ _
  rw [View.set_slice_whole, Rect.mem_set_unit]
  exact Iff.rfl

/-- Row r lies in block r / 2000: the blocks tile the result. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 2000 < 50 := by omega
  refine ⟨⟨(i 0).val / 2000, ht⟩, flush0_2 _, ?_⟩
  rw [mem_block0]
  obtain ⟨-, -, -, -, o0, o1⟩ := blockIdx0 ⟨(i 0).val / 2000, ht⟩
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [o1]; omega

/-- After the run of the first product the result array is the product of the whole arrays. -/
theorem product0 (D : DotDims S100000x128 S128x128 S100000x128) (hD : D = DotDims.plain 100000 128 128) (c : Dev nD) :
    (dat0 V c).arrAt 2 cfg0.N = Host.dotGeneral (F := Ideal) (φ₁ := .f32) (φ₂ := .f32) D none (V c main_arg0 : FVec Ideal S100000x128 .f32) (V c main_arg4 : FVec Ideal S128x128 .f32) :=
  (dat0 V c).arrAt_eq_of_cover 2 _ (fun t _ => flushed0_eq V D hD c t) cover0

end Cert.KernelIdeal.RegionValue

end
-- ==== Proof.Product2.lean ====
/-
  The second dense product, block by block.

  The hidden features H : [100000, 128] are cut into 50 blocks of 2000 consecutive rows; at block t the kernel
  multiplies rows 2000 t … 2000 t + 1999 of H by the whole weight matrix W : [128, 64] into a zero accumulator (the
  cast of the block to its own shape and the change of number format before the product are the identity on the
  extended reals) and writes the product back to the same rows of the result.  Each written block is that block of
  the one product H · W, and the 50 blocks tile the result: after the run the result array is H · W.
-/
import proofs.«146141_j7069516169728_1_alg».proof.Proof.Gen.KernelIdeal.Frame
import proofs.«146141_j7069516169728_1_alg».proof.Proof.LibRowBlocks
import Idealize.ShloMosaic.Lib.Pipeline.Value
set_option maxRecDepth 16384

noncomputable section

namespace Cert.KernelIdeal.RegionValue2

open Idealize.ShloMosaic Idealize.ShloMosaic.TcCoe Idealize.SL.Sem Idealize.ShloMosaic.ValueIdx
open Idealize.ShloMosaic.Pipeline (Dat)
open Cert.KernelIdeal Cert.KernelIdeal.Gen Cert.Lib.PlainDot Cert.Bridge

variable (V : (c : Dev nD) → (b : Ref sig .tc) → Buf (Elt Ideal) ((c : Thread nD τ).loc b))

theorem zeros2 : (![0, 0] : Fin 2 → Nat) = fun _ => 0 := funext fun a => by fin_cases a <;> rfl

/-- Block t of the left factor and of the result is row block t; the weight matrix is one block. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product of a row block, read at a block entry, is the whole product read where the entry sits. -/
theorem product2_apply (D : DotDims S100000x128 S128x64 S100000x64) (hD : D = DotDims.plain 100000 128 64)
    (X : FVec Ideal S100000x128 .f32) (W : FVec Ideal S128x64 .f32)
    (x0 : Vec Ideal S2000x128 .f32) (x1 : Vec Ideal S128x64 .f32)
    (e0 : S2000x128.Idx → S100000x128.Idx) (e1 : S128x64.Idx → S128x64.Idx) (eo : S2000x64.Idx → S100000x64.Idx)
    (hx0 : ∀ j, x0 j = X (e0 j)) (hx1 : ∀ j, x1 j = W (e1 j))
    (h0 : ∀ (y : S2000x64.Idx) (k : Fin 128), e0 (rowIdx y k) = rowIdx (eo y) k)
    (h1 : ∀ (y : S2000x64.Idx) (k : Fin 128), e1 (colIdx y k) = colIdx (eo y) k)
    (y : S2000x64.Idx) :
    k2_pay1 (F := Ideal) x0 x1 y = Host.dotGeneral (F := Ideal) (φ₁ := .f32) (φ₂ := .f32) D none X W (eo y) := by
  unfold k2_pay1
  simp only [shapeCast_self]
  exact dot_block (R := 2000) (N := 100000) (K := 128) (C := 64) _ rfl D hD none none X W _ _ e0 e1 eo hx0 hx1 h0 h1 y

/-- What block t writes back is block t of the whole product. -/
theorem flushed2_eq (D : DotDims S100000x128 S128x64 S100000x64) (hD : D = DotDims.plain 100000 128 64)
    (c : Dev nD) (t : Fin cfg2.N) :
    (dat2 V c).flushed 2 t = ((cfg2.win 2).blk t).view.read (Elt Ideal)
      (Host.dotGeneral (F := Ideal) (φ₁ := .f32) (φ₂ := .f32) D none (V c main_v44 : FVec Ideal S100000x128 .f32) (V c main_arg6 : FVec Ideal S128x64 .f32)) := by
  show (cfg2.win 2).cut (grid2.coords t) ((dat2 V c).after 2 t) = _
  rw [after2_2]
  unfold out2_2
  rw [View.canon_unit_zero zeros2]
  simp only [View.ld_unit_zero (S := S2000x128) zeros2, View.ld_unit_zero (S := S128x64) zeros2, View.ld_unit_zero (S := S2000x64) zeros2]
  obtain ⟨a0, a1, b0, b1, o0, o1⟩ := blockIdx2 t
  funext j
  refine product2_apply D hD (V c main_v44) (V c main_arg6) (iblk2 V c 0 t) (iblk2 V c 1 t)
    ((cfg2.win 0).blk t).view.emb ((cfg2.win 1).blk t).view.emb ((cfg2.win 2).blk t).view.emb
    (fun _ => rfl) (fun _ => rfl) (fun y k => ?_) (fun y k => ?_) j
  · funext a; apply Fin.ext
    match a with
    | ⟨0, _⟩ => show win2_0.index t (0 : Fin 2) * 2000 + 1 * (y 0).val = win2_2.index t (0 : Fin 2) * 2000 + 1 * (y 0).val; omega
    | ⟨1, _⟩ => show win2_0.index t (1 : Fin 2) * 128 + 1 * k.val = k.val; omega
  · funext a; apply Fin.ext
    match a with
    | ⟨0, _⟩ => show win2_1.index t (0 : Fin 2) * 128 + 1 * k.val = k.val; omega
    | ⟨1, _⟩ => show win2_1.index t (1 : Fin 2) * 64 + 1 * (y 1).val = win2_2.index t (1 : Fin 2) * 64 + 1 * (y 1).val; omega

/-- An entry of the result is in block t exactly when its row is one of the block's 2000 rows. -/
theorem mem_block2 (t : Fin cfg2.N) (i : S100000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v45).slice (win2_2.rect t)).set ↔ _
  rw [View.set_slice_whole, Rect.mem_set_unit]
  exact Iff.rfl

/-- Row r lies in block r / 2000: the blocks tile the result. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 2000 < 50 := by omega
  refine ⟨⟨(i 0).val / 2000, ht⟩, flush2_2 _, ?_⟩
  rw [mem_block2]
  obtain ⟨-, -, -, -, o0, o1⟩ := blockIdx2 ⟨(i 0).val / 2000, ht⟩
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    rw [o1]; omega

/-- After the run of the first product the result array is the product of the whole arrays. -/
theorem product2 (D : DotDims S100000x128 S128x64 S100000x64) (hD : D = DotDims.plain 100000 128 64) (c : Dev nD) :
    (dat2 V c).arrAt 2 cfg2.N = Host.dotGeneral (F := Ideal) (φ₁ := .f32) (φ₂ := .f32) D none (V c main_v44 : FVec Ideal S100000x128 .f32) (V c main_arg6 : FVec Ideal S128x64 .f32) :=
  (dat2 V c).arrAt_eq_of_cover 2 _ (fun t _ => flushed2_eq V D hD c t) cover2

end Cert.KernelIdeal.RegionValue2

end
-- ==== Proof.LibRowBias.lean ====
/-
  A one-row bias added to a block of rows, at the ideal values.

  An [N, C] array is cut into blocks of R consecutive rows.  A kernel adds a [1, C] bias row, stretched over the
  block's R rows, to a block; the host adds the same row, stretched over all N rows, to the whole array.  Read at an
  entry y of the block the two agree with the whole-array sum read where y sits in the array — and so does the sum
  followed by a maximum with a constant.  The embeddings of block entries into array entries are abstract maps with
  the index equations a row block satisfies.  Symbolic extents R, N, C.
-/
import Idealize.ShloMosaic.PureOps.Ideal.Laws
import Idealize.ShloMosaic.Lib.ValueIdx
import Idealize.ShloMosaic.Lib.Pipeline.Value
import proofs.«146141_j7069516169728_1_alg».proof.Proof.LibRowBlocks

noncomputable section

namespace Cert.Lib.RowBias

open Idealize.ShloMosaic Idealize.ShloMosaic.ValueIdx Cert.Bridge

variable {R N C : Nat}

/-- THE SUM of a row block and a one-row bias stretched over its rows, against the host's sum on the whole array. -/
theorem addRow_block (A : FVec Ideal ⟨2, ![N, C]⟩ .f32) (B : FVec Ideal ⟨2, ![1, C]⟩ .f32)
    (x0 : FVec Ideal ⟨2, ![R, C]⟩ .f32) (x2 : FVec Ideal ⟨2, ![1, C]⟩ .f32)
    (e0 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx2 : ∀ j, x2 j = B (e2 j))
    (h0 : ∀ y, e0 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf x0 (broadcastTo ⟨2, ![R, C]⟩ x2 hb) y = addf A (broadcastInDim ⟨2, ![N, C]⟩ ![0, 1] hB B) (eo y) := by
  rw [addf_apply, addf_apply, stretchRow_apply, hostStretchRow_apply, hx0, hx2, h0, h2]

/-- THE SUM FOLLOWED BY A MAXIMUM with a constant, block against whole array. -/
theorem addRowMax_block (A : FVec Ideal ⟨2, ![N, C]⟩ .f32) (B : FVec Ideal ⟨2, ![1, C]⟩ .f32)
    (x0 : FVec Ideal ⟨2, ![R, C]⟩ .f32) (x2 : FVec Ideal ⟨2, ![1, C]⟩ .f32)
    (e0 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx2 : ∀ j, x2 j = B (e2 j))
    (h0 : ∀ y, e0 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf x0 (broadcastTo ⟨2, ![R, C]⟩ x2 hb)) (broadcast ⟨2, ![R, C]⟩ (Scalar.ofBits (F := Ideal) .f32 z)) y
      = maximumf (addf A (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addRow_block A B x0 x2 e0 e2 eo hx0 hx2 h0 h2 hb hB y, hostSplat_apply]
  rfl

end Cert.Lib.RowBias

end
-- ==== Proof.BiasRelu.lean ====
/-
  The first layer's bias and rectifier, block by block.

  The aggregated features A : [100000, 128] are cut into 50 blocks of 2000 consecutive rows; at block t the kernel adds
  the bias, held as one row B : [1, 128] and stretched over the block's 2000 rows, to rows 2000 t … 2000 t + 1999 of A,
  takes the maximum with 0,
  and writes the block back to the same rows of the result.  The sum and the maximum act on each entry by itself and the
  stretched row does not depend on the row, so each written block is that block of the whole-array computation
  max (A + stretch B, 0), and the 50 blocks tile the result.
-/
import proofs.«146141_j7069516169728_1_alg».proof.Proof.Gen.KernelIdeal.Frame
import proofs.«146141_j7069516169728_1_alg».proof.Proof.LibRowBias
import Idealize.ShloMosaic.Lib.Pipeline.Value
set_option maxRecDepth 16384

noncomputable section

namespace Cert.KernelIdeal.BiasRelu

open Idealize.ShloMosaic Idealize.ShloMosaic.TcCoe Idealize.SL.Sem Idealize.ShloMosaic.ValueIdx
open Idealize.ShloMosaic.Pipeline (Dat)
open Cert.KernelIdeal Cert.KernelIdeal.Gen Cert.Bridge

variable (V : (c : Dev nD) → (b : Ref sig .tc) → Buf (Elt Ideal) ((c : Thread nD τ).loc b))

theorem zeros2 : (![0, 0] : Fin 2 → Nat) = fun _ => 0 := funext fun a => by fin_cases a <;> rfl

/-- Block t of the aggregated features and of the result is row block t; the bias row is one block. -/
theorem blockIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole-array computation the blocks are blocks of. -/
def whole (hB : S1x128.BroadcastsInDim S100000x128 ![0, 1]) (hZ : S_.BroadcastsInDim S100000x128 ![])
    (A : FVec Ideal S100000x128 .f32) (B : FVec Ideal S1x128 .f32) : FVec Ideal S100000x128 .f32 :=
  maximumf (addf A (broadcastInDim S100000x128 ![0, 1] hB B)) (broadcastInDim S100000x128 ![] hZ (constant (F := Ideal) S_ .f32 0x00000000#32))

/-- The body's result on a row block, read at a block entry, is the whole-array computation read where the entry sits. -/
theorem body_apply (hB : S1x128.BroadcastsInDim S100000x128 ![0, 1]) (hZ : S_.BroadcastsInDim S100000x128 ![])
    (A : FVec Ideal S100000x128 .f32) (B : FVec Ideal S1x128 .f32)
    (x0 : Vec Ideal S2000x128 .f32) (x1 : Vec Ideal S1x128 .f32)
    (e0 : S2000x128.Idx → S100000x128.Idx) (e2 : S1x128.Idx → S1x128.Idx) (eo : S2000x128.Idx → S100000x128.Idx)
    (hx0 : ∀ j, x0 j = A (e0 j)) (hx2 : ∀ j, x1 j = B (e2 j))
    (h0 : ∀ y, e0 y = eo y) (h2 : ∀ y : S2000x128.Idx, e2 (rowZero y) = rowZero (eo y))
    (y : S2000x128.Idx) :
    k1_pay1 (F := Ideal) x0 x1 y = whole hB hZ A B (eo y) := by
  unfold k1_pay1 whole
  simp only [shapeCast_self]
  exact Cert.Lib.RowBias.addRowMax_block (R := 2000) (N := 100000) (C := 128) A B x0 x1 e0 e2 eo hx0 hx2 h0 h2 _ hB hZ _ y

/-- What block t writes back is block t of the whole-array computation. -/
theorem flushed_eq (hB : S1x128.BroadcastsInDim S100000x128 ![0, 1]) (hZ : S_.BroadcastsInDim S100000x128 ![])
    (c : Dev nD) (t : Fin cfg1.N) :
    (dat1 V c).flushed 2 t = ((cfg1.win 2).blk t).view.read (Elt Ideal)
      (whole hB hZ (V c main_v42) (V c main_v43)) := by
  show (cfg1.win 2).cut (grid1.coords t) ((dat1 V c).after 2 t) = _
  rw [after1_2]
  unfold out1_2
  rw [View.canon_unit_zero zeros2]
  simp only [View.ld_unit_zero (S := S2000x128) zeros2, View.ld_unit_zero (S := S1x128) zeros2]
  obtain ⟨a0, a1, b0, b1, o0, o1⟩ := blockIdx t
  funext j
  refine body_apply hB hZ (V c main_v42) (V c main_v43) (iblk1 V c 0 t) (iblk1 V c 1 t)
    ((cfg1.win 0).blk t).view.emb ((cfg1.win 1).blk t).view.emb ((cfg1.win 2).blk t).view.emb
    (fun _ => rfl) (fun _ => rfl) (fun y => ?_) (fun y => ?_) j
  · funext a; apply Fin.ext
    match a with
    | ⟨0, _⟩ => show win1_0.index t (0 : Fin 2) * 2000 + 1 * (y 0).val = win1_2.index t (0 : Fin 2) * 2000 + 1 * (y 0).val; omega
    | ⟨1, _⟩ => show win1_0.index t (1 : Fin 2) * 128 + 1 * (y 1).val = win1_2.index t (1 : Fin 2) * 128 + 1 * (y 1).val; omega
  · funext a; apply Fin.ext
    match a with
    | ⟨0, _⟩ => show win1_1.index t (0 : Fin 2) * 1 + 1 * 0 = 0; omega
    | ⟨1, _⟩ => show win1_1.index t (1 : Fin 2) * 128 + 1 * (y 1).val = win1_2.index t (1 : Fin 2) * 128 + 1 * (y 1).val; omega

/-- An entry of the result is in block t exactly when its row is one of the block's 2000 rows. -/
theorem mem_block (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v44).slice (win1_2.rect t)).set ↔ _
  rw [View.set_slice_whole, Rect.mem_set_unit]
  exact Iff.rfl

/-- Row r lies in block r / 2000: the blocks tile the result. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 2000 < 50 := by omega
  refine ⟨⟨(i 0).val / 2000, ht⟩, flush1_2 _, ?_⟩
  rw [mem_block]
  obtain ⟨-, -, -, -, o0, o1⟩ := blockIdx ⟨(i 0).val / 2000, ht⟩
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val
      ∧ (i 1).val < win1_2.index ⟨(i 0).val / 2000, ht⟩ (1 : Fin 2) * 128 + 128
    rw [o1]; omega

/-- After the run of this kernel its result array is the whole-array computation of its two operand arrays. -/
theorem value (hB : S1x128.BroadcastsInDim S100000x128 ![0, 1]) (hZ : S_.BroadcastsInDim S100000x128 ![]) (c : Dev nD) :
    (dat1 V c).arrAt 2 cfg1.N = whole hB hZ (V c main_v42) (V c main_v43) :=
  (dat1 V c).arrAt_eq_of_cover 2 _ (fun t _ => flushed_eq V hB hZ c t) cover

end Cert.KernelIdeal.BiasRelu

end
-- ==== Proof.BiasAdd.lean ====
/-
  The second layer's bias, block by block.

  The aggregated features A : [100000, 64] are cut into 50 blocks of 2000 consecutive rows; at block t the kernel adds
  the bias, held as one row B : [1, 64] and stretched over the block's 2000 rows, to rows 2000 t … 2000 t + 1999 of A
  and writes the block back to the same rows of the result.  The sum acts on each entry by itself and the
  stretched row does not depend on the row, so each written block is that block of the whole-array computation
  A + stretch B, and the 50 blocks tile the result.
-/
import proofs.«146141_j7069516169728_1_alg».proof.Proof.Gen.KernelIdeal.Frame
import proofs.«146141_j7069516169728_1_alg».proof.Proof.LibRowBias
import Idealize.ShloMosaic.Lib.Pipeline.Value
set_option maxRecDepth 16384

noncomputable section

namespace Cert.KernelIdeal.BiasAdd

open Idealize.ShloMosaic Idealize.ShloMosaic.TcCoe Idealize.SL.Sem Idealize.ShloMosaic.ValueIdx
open Idealize.ShloMosaic.Pipeline (Dat)
open Cert.KernelIdeal Cert.KernelIdeal.Gen Cert.Bridge

variable (V : (c : Dev nD) → (b : Ref sig .tc) → Buf (Elt Ideal) ((c : Thread nD τ).loc b))

theorem zeros2 : (![0, 0] : Fin 2 → Nat) = fun _ => 0 := funext fun a => by fin_cases a <;> rfl

/-- Block t of the aggregated features and of the result is row block t; the bias row is one block. -/
theorem blockIdx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The whole-array computation the blocks are blocks of. -/
def whole (hB : S1x64.BroadcastsInDim S100000x64 ![0, 1])
    (A : FVec Ideal S100000x64 .f32) (B : FVec Ideal S1x64 .f32) : FVec Ideal S100000x64 .f32 :=
  addf A (broadcastInDim S100000x64 ![0, 1] hB B)

/-- The body's result on a row block, read at a block entry, is the whole-array computation read where the entry sits. -/
theorem body_apply (hB : S1x64.BroadcastsInDim S100000x64 ![0, 1])
    (A : FVec Ideal S100000x64 .f32) (B : FVec Ideal S1x64 .f32)
    (x0 : Vec Ideal S2000x64 .f32) (x1 : Vec Ideal S1x64 .f32)
    (e0 : S2000x64.Idx → S100000x64.Idx) (e2 : S1x64.Idx → S1x64.Idx) (eo : S2000x64.Idx → S100000x64.Idx)
    (hx0 : ∀ j, x0 j = A (e0 j)) (hx2 : ∀ j, x1 j = B (e2 j))
    (h0 : ∀ y, e0 y = eo y) (h2 : ∀ y : S2000x64.Idx, e2 (rowZero y) = rowZero (eo y))
    (y : S2000x64.Idx) :
    k3_pay1 (F := Ideal) x0 x1 y = whole hB A B (eo y) := by
  unfold k3_pay1 whole
  simp only [shapeCast_self]
  exact Cert.Lib.RowBias.addRow_block (R := 2000) (N := 100000) (C := 64) A B x0 x1 e0 e2 eo hx0 hx2 h0 h2 _ hB y

/-- What block t writes back is block t of the whole-array computation. -/
theorem flushed_eq (hB : S1x64.BroadcastsInDim S100000x64 ![0, 1])
    (c : Dev nD) (t : Fin cfg3.N) :
    (dat3 V c).flushed 2 t = ((cfg3.win 2).blk t).view.read (Elt Ideal)
      (whole hB (V c main_v58) (V c main_v59)) := by
  show (cfg3.win 2).cut (grid3.coords t) ((dat3 V c).after 2 t) = _
  rw [after3_2]
  unfold out3_2
  rw [View.canon_unit_zero zeros2]
  simp only [View.ld_unit_zero (S := S2000x64) zeros2, View.ld_unit_zero (S := S1x64) zeros2]
  obtain ⟨a0, a1, b0, b1, o0, o1⟩ := blockIdx t
  funext j
  refine body_apply hB (V c main_v58) (V c main_v59) (iblk3 V c 0 t) (iblk3 V c 1 t)
    ((cfg3.win 0).blk t).view.emb ((cfg3.win 1).blk t).view.emb ((cfg3.win 2).blk t).view.emb
    (fun _ => rfl) (fun _ => rfl) (fun y => ?_) (fun y => ?_) j
  · funext a; apply Fin.ext
    match a with
    | ⟨0, _⟩ => show win3_0.index t (0 : Fin 2) * 2000 + 1 * (y 0).val = win3_2.index t (0 : Fin 2) * 2000 + 1 * (y 0).val; omega
    | ⟨1, _⟩ => show win3_0.index t (1 : Fin 2) * 64 + 1 * (y 1).val = win3_2.index t (1 : Fin 2) * 64 + 1 * (y 1).val; omega
  · funext a; apply Fin.ext
    match a with
    | ⟨0, _⟩ => show win3_1.index t (0 : Fin 2) * 1 + 1 * 0 = 0; omega
    | ⟨1, _⟩ => show win3_1.index t (1 : Fin 2) * 64 + 1 * (y 1).val = win3_2.index t (1 : Fin 2) * 64 + 1 * (y 1).val; omega

/-- An entry of the result is in block t exactly when its row is one of the block's 2000 rows. -/
theorem mem_block (t : Fin cfg3.N) (i : S100000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v60).slice (win3_2.rect t)).set ↔ _
  rw [View.set_slice_whole, Rect.mem_set_unit]
  exact Iff.rfl

/-- Row r lies in block r / 2000: the blocks tile the result. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have ht : (i 0).val / 2000 < 50 := by omega
  refine ⟨⟨(i 0).val / 2000, ht⟩, flush3_2 _, ?_⟩
  rw [mem_block]
  obtain ⟨-, -, -, -, o0, o1⟩ := blockIdx ⟨(i 0).val / 2000, ht⟩
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win3_2.index ⟨(i 0).val / 2000, ht⟩ (1 : Fin 2) * 64 ≤ (i 1).val
      ∧ (i 1).val < win3_2.index ⟨(i 0).val / 2000, ht⟩ (1 : Fin 2) * 64 + 64
    rw [o1]; omega

/-- After the run of this kernel its result array is the whole-array computation of its two operand arrays. -/
theorem value (hB : S1x64.BroadcastsInDim S100000x64 ![0, 1])  (c : Dev nD) :
    (dat3 V c).arrAt 2 cfg3.N = whole hB (V c main_v58) (V c main_v59) :=
  (dat3 V c).arrAt_eq_of_cover 2 _ (fun t _ => flushed_eq V hB c t) cover

end Cert.KernelIdeal.BiasAdd

end
-- ==== Proof.LibRowOps.lean ====
/-
  Vector operations on matrices read at an index given by its two coordinates.

  A column vector of row statistics passes through three layout steps on its way back to the matrix it was computed
  from: a vector of length `a` is recast as an `a × 1` column, the column is broadcast along the rows of an
  `a × b` matrix, and before that the statistic itself is a sum along each row. Read at the coordinates `(r, c)`
  these are: the vector's entry `r`; the column's entry `(r, 0)`; and the sum over `k` of the entries `(r, k)`.
  A matrix that is three blocks of equal width laid side by side reads, in each third of its columns, the
  corresponding block; and a sum over the three thirds of an index range splits into three sums over one third.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Mathlib.Algebra.BigOperators.Fin

noncomputable section

namespace Cert.Lib.RowOps

open Idealize.ShloMosaic Idealize.ShloMosaic.ValueIdx

variable {α : Type}

/-! ## The column forms -/

/-- A vector of length `a` recast as an `a × 1` column reads, at `(r, u)`, the vector's entry `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `a × 1` column broadcast along the rows of an `a × b` matrix reads, at `(r, c)`, the column's entry `(r, 0)`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else c.val
    rw [if_pos rfl]

/-- The sum along each row of an `a × b` matrix of extended reals, from the neutral accumulator (which the sum drops),
    reads at `r` the sum over `k` of the entries `(r, k)`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  show ∑ k : Fin b, src (h.lift (ix1 r) k) = ∑ k : Fin b, src (ix2 r k)
  refine Finset.sum_congr rfl fun k _ => congrArg src ?_
  funext d
  match d with
  | ⟨0, _⟩ => exact Fin.ext rfl
  | ⟨1, _⟩ => exact Fin.ext rfl

/-- The reciprocal square root of a matrix of extended reals, entry by entry. -/
theorem rsqrt_apply {s : Shape} {φ : FTy} (a : FVec Ideal s φ) (i : s.Idx) : rsqrt a i = Ideal.rsqrt (a i) := rfl

/-! ## Three blocks side by side -/

section Concat

variable {n w W : ℕ} (x₀ x₁ x₂ : (⟨2, ![n, w]⟩ : Shape).Idx → α)
  (h : Shape.Concatenates [(⟨2, ![n, w]⟩ : Shape), ⟨2, ![n, w]⟩, ⟨2, ![n, w]⟩] ⟨2, ![n, W]⟩ 1)

/-- In the first third of the columns the side-by-side matrix is the first block. -/
theorem concat3_apply_0 (r : Fin n) (k : Fin w) (hk : k.val < W) :
    concatenate ⟨2, ![n, W]⟩ 1 [⟨⟨2, ![n, w]⟩, x₀⟩, ⟨⟨2, ![n, w]⟩, x₁⟩, ⟨⟨2, ![n, w]⟩, x₂⟩] h (ix2 r ⟨k.val, hk⟩)
      = x₀ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨k.val, hk⟩)
    (k := 0) (hk := by simp) (s₁ := ⟨2, ![n, w]⟩) (x₁ := x₀) (hxk := rfl) (hr := rfl) (pre := 0) (hpre := rfl)
    (i := ix2 r k)
    (hi := fun b hb => by
      match b with
      | ⟨0, _⟩ => rfl
      | ⟨1, _⟩ => exact absurd rfl hb)
    (ha := Nat.zero_add _)

/-- In the second third it is the second block. -/
theorem concat3_apply_1 (r : Fin n) (k : Fin w) (hk : w + k.val < W) :
    concatenate ⟨2, ![n, W]⟩ 1 [⟨⟨2, ![n, w]⟩, x₀⟩, ⟨⟨2, ![n, w]⟩, x₁⟩, ⟨⟨2, ![n, w]⟩, x₂⟩] h (ix2 r ⟨w + k.val, hk⟩)
      = x₁ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨w + k.val, hk⟩)
    (k := 1) (hk := by simp) (s₁ := ⟨2, ![n, w]⟩) (x₁ := x₁) (hxk := rfl) (hr := rfl) (pre := w) (hpre := by simp)
    (i := ix2 r k)
    (hi := fun b hb => by
      match b with
      | ⟨0, _⟩ => rfl
      | ⟨1, _⟩ => exact absurd rfl hb)
    (ha := rfl)

/-- In the last third it is the third block. -/
theorem concat3_apply_2 (r : Fin n) (k : Fin w) (hk : w + w + k.val < W) :
    concatenate ⟨2, ![n, W]⟩ 1 [⟨⟨2, ![n, w]⟩, x₀⟩, ⟨⟨2, ![n, w]⟩, x₁⟩, ⟨⟨2, ![n, w]⟩, x₂⟩] h (ix2 r ⟨w + w + k.val, hk⟩)
      = x₂ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨w + w + k.val, hk⟩)
    (k := 2) (hk := by simp) (s₁ := ⟨2, ![n, w]⟩) (x₁ := x₂) (hxk := rfl) (hr := rfl) (pre := (w + w)) (hpre := by simp)
    (i := ix2 r k)
    (hi := fun b hb => by
      match b with
      | ⟨0, _⟩ => rfl
      | ⟨1, _⟩ => exact absurd rfl hb)
    (ha := rfl)

end Concat

/-! ## A sum over three thirds -/

/-- A sum over `w + w + w` indices is the sum of the sums over each third. -/
theorem sum_thirds {M : Type*} [AddCommMonoid M] (w W : ℕ) (hW : W = w + w + w) (f : Fin W → M) :
    ∑ k : Fin W, f k
      = (∑ k : Fin w, f ⟨k.val, by omega⟩ + ∑ k : Fin w, f ⟨w + k.val, by omega⟩) + ∑ k : Fin w, f ⟨w + w + k.val, by omega⟩ := by
  subst hW
  rw [Fin.sum_univ_add, Fin.sum_univ_add]
  rfl

/-- A row of three side-by-side blocks against a column of a matrix with three times as many rows: the sum over all
    the columns splits into the three blocks' sums against the matching third of the rows. -/
theorem sum_concat3_mul {n w W d : ℕ} (hW : W = w + w + w) (x₀ x₁ x₂ : (⟨2, ![n, w]⟩ : Shape).Idx → EReal)
    (h : Shape.Concatenates [(⟨2, ![n, w]⟩ : Shape), ⟨2, ![n, w]⟩, ⟨2, ![n, w]⟩] ⟨2, ![n, W]⟩ 1)
    (y : (⟨2, ![W, d]⟩ : Shape).Idx → EReal) (r : Fin n) (j : Fin d) :
    ∑ k : Fin W, concatenate ⟨2, ![n, W]⟩ 1 [⟨⟨2, ![n, w]⟩, x₀⟩, ⟨⟨2, ![n, w]⟩, x₁⟩, ⟨⟨2, ![n, w]⟩, x₂⟩] h (ix2 r k) * y (ix2 k j)
      = (∑ k : Fin w, x₀ (ix2 r k) * y (ix2 ⟨k.val, by omega⟩ j) + ∑ k : Fin w, x₁ (ix2 r k) * y (ix2 ⟨w + k.val, by omega⟩ j))
          + ∑ k : Fin w, x₂ (ix2 r k) * y (ix2 ⟨w + w + k.val, by omega⟩ j) := by
  rw [sum_thirds w W hW]
  refine congrArg₂ (· + ·) (congrArg₂ (· + ·) ?_ ?_) ?_
  · exact Finset.sum_congr rfl fun k _ => congrArg (· * _) (concat3_apply_0 x₀ x₁ x₂ h r k (by omega))
  · exact Finset.sum_congr rfl fun k _ => congrArg (· * _) (concat3_apply_1 x₀ x₁ x₂ h r k (by omega))
  · exact Finset.sum_congr rfl fun k _ => congrArg (· * _) (concat3_apply_2 x₀ x₁ x₂ h r k (by omega))

end Cert.Lib.RowOps

end
-- ==== Proof.Score.lean ====
/-
  The scoring kernel, block by block, and its column of scores read as a vector.

  For each of the 1000000 scored pairs the two end nodes' embeddings are rows e of two arrays P, Q : [1000000, 64].
  The pairs are cut into 500 blocks of 2000; at block t the kernel multiplies the two blocks entry by entry, sums
  each row over its 64 entries from a zero accumulator, and writes the 2000 sums back as a column to rows
  2000 t … 2000 t + 1999 of the result [1000000, 1].  The sum of row e reads row e of each operand only, so each
  written block is that block of the one column e ↦ ∑ₖ P (e, k) · Q (e, k), and the 500 blocks tile the column.  Read as
  a vector, the column is the reference's sum over the second axis of the entrywise product from the initial value
  0: 0 + ∑ₖ P (e, k) · Q (e, k).
-/
import proofs.«146141_j7069516169728_1_alg».proof.Proof.Gen.KernelIdeal.Frame
import proofs.«146141_j7069516169728_1_alg».proof.Proof.LibRowOps
import Idealize.ShloMosaic.Lib.Pipeline.Value
import Idealize.ShloMosaic.PureOps.Ideal.Laws
set_option maxRecDepth 16384

noncomputable section

namespace Cert.KernelIdeal.Score

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- Block t of both operands and of the result is row block t. -/
theorem blockIdx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The column of row-wise inner products of two [1000000, 64] arrays. -/
def scores (P Q : FVec Ideal S1000000x64 .f32) : FVec Ideal S1000000x1 .f32 :=
  fun i => ∑ k : Fin 64, P (ix2 (⟨(i 0).val, (i 0).isLt⟩ : Fin 1000000) k) * Q (ix2 (⟨(i 0).val, (i 0).isLt⟩ : Fin 1000000) k)

/-- The body's column of row sums on a block, read at a block entry, is the whole column read where the entry sits. -/
theorem body_apply (P Q : FVec Ideal S1000000x64 .f32) (x0 x1 : Vec Ideal S2000x64 .f32)
    (e0 e1 : S2000x64.Idx → S1000000x64.Idx) (eo : S2000x1.Idx → S1000000x1.Idx)
    (hx0 : ∀ j, x0 j = P (e0 j)) (hx1 : ∀ j, x1 j = Q (e1 j))
    (h0 : ∀ (p : Fin 2000) (u : Fin 1) (k : Fin 64),
      e0 (ix2 p k) = ix2 (⟨(eo (ix2 p u) 0).val, (eo (ix2 p u) 0).isLt⟩ : Fin 1000000) k)
    (h1 : ∀ (p : Fin 2000) (u : Fin 1) (k : Fin 64),
      e1 (ix2 p k) = ix2 (⟨(eo (ix2 p u) 0).val, (eo (ix2 p u) 0).isLt⟩ : Fin 1000000) k)
    (y : S2000x1.Idx) :
    k4_pay1 (F := Ideal) x0 x1 y = scores P Q (eo y) := by
  obtain ⟨p, u, rfl⟩ : ∃ (p : Fin 2000) (u : Fin 1), y = ix2 p u := ⟨y 0, y 1, eq_ix2 y⟩
  unfold k4_pay1 scores
  simp only [shapeCast_self]
  refine (Cert.Lib.RowOps.shapeCast_a_a1_apply _ _ p u).trans ?_
  refine (Cert.Lib.RowOps.rowSum_apply _ _ _ _ _ p).trans ?_
  refine Finset.sum_congr rfl fun k _ => ?_
  show x0 (ix2 p k) * x1 (ix2 p k) = _
  rw [hx0, hx1, h0 p u k, h1 p u k]

/-- What block t writes back is block t of the whole column. -/
theorem flushed_eq (c : Dev nD) (t : Fin cfg4.N) :
    (dat4 V c).flushed 2 t = ((cfg4.win 2).blk t).view.read (Elt Ideal)
      (scores (V c main_v70) (V c main_v79)) := by
  show (cfg4.win 2).cut (grid4.coords t) ((dat4 V c).after 2 t) = _
  rw [after4_2]
  unfold out4_2
  rw [View.canon_unit_zero zeros2]
  simp only [View.ld_unit_zero (S := S2000x64) zeros2]
  obtain ⟨a0, a1, b0, b1, o0, o1⟩ := blockIdx t
  funext j
  refine body_apply (V c main_v70) (V c main_v79) (iblk4 V c 0 t) (iblk4 V c 1 t)
    ((cfg4.win 0).blk t).view.emb ((cfg4.win 1).blk t).view.emb ((cfg4.win 2).blk t).view.emb
    (fun _ => rfl) (fun _ => rfl) (fun p u k => ?_) (fun p u k => ?_) j
  · funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 64 + 1 * k.val = k.val; omega
  · funext a; apply Fin.ext
    match a with
    | ⟨0, _⟩ => show win4_1.index t (0 : Fin 2) * 2000 + 1 * p.val = win4_2.index t (0 : Fin 2) * 2000 + 1 * p.val; omega
    | ⟨1, _⟩ => show win4_1.index t (1 : Fin 2) * 64 + 1 * k.val = k.val; omega

/-- An entry of the column is in block t exactly when its row is one of the block's 2000 rows. -/
theorem mem_block (t : Fin cfg4.N) (i : S1000000x1.Idx) :
    i ∈ ((cfg4.win 2).blk t).view.set ↔ ∀ a : Fin 2, win4_2.index t a * S2000x1.size a ≤ (i a).val
      ∧ (i a).val < win4_2.index t a * S2000x1.size a + S2000x1.size a := by
  show i ∈ ((View.whole main_v80).slice (win4_2.rect t)).set ↔ _
  rw [View.set_slice_whole, Rect.mem_set_unit]
  exact Iff.rfl

/-- Row e lies in block e / 2000: the blocks tile the column. -/
theorem cover (i : S1000000x1.Idx) :
    ∃ t : Fin cfg4.N, (cfg4.win 2).flush t = true ∧ i ∈ ((cfg4.win 2).blk t).view.set := by
  have hi0 : (i 0).val < 1000000 := (i 0).isLt
  have hi1 : (i 1).val < 1 := (i 1).isLt
  have ht : (i 0).val / 2000 < 500 := by omega
  refine ⟨⟨(i 0).val / 2000, ht⟩, flush4_2 _, ?_⟩
  rw [mem_block]
  obtain ⟨-, -, -, -, o0, o1⟩ := blockIdx ⟨(i 0).val / 2000, ht⟩
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    rw [o0]; show (i 0).val / 2000 * 2000 ≤ (i 0).val ∧ (i 0).val < (i 0).val / 2000 * 2000 + 2000; omega
  | ⟨1, _⟩ =>
    show win4_2.index ⟨(i 0).val / 2000, ht⟩ (1 : Fin 2) * 1 ≤ (i 1).val
      ∧ (i 1).val < win4_2.index ⟨(i 0).val / 2000, ht⟩ (1 : Fin 2) * 1 + 1
    rw [o1]; omega

/-- After the run of the scoring kernel its result array is the column of row-wise inner products. -/
theorem value (c : Dev nD) : (dat4 V c).arrAt 2 cfg4.N = scores (V c main_v70) (V c main_v79) :=
  (dat4 V c).arrAt_eq_of_cover 2 _ (fun t _ => flushed_eq V c t) cover

/-- The column read as a vector is the sum over the second axis of the entrywise product, from the initial value 0. -/
theorem scores_vector (P Q : FVec Ideal S1000000x64 .f32) (hc : S1000000x1.ShapeCasts S1000000)
    (hr : S1000000x64.ReducesTo [1] S1000000) (hS : 0 < S_.numel) :
    shapeCast S1000000 (scores P Q) hc
      = Host.reduceAdd (F := Ideal) (mulf P Q) (constant (F := Ideal) S_ .f32 0x00000000#32) hr hS := by
  funext i
  have e1 : shapeCast S1000000 (scores P Q) hc i = scores P Q (ix2 (⟨(i 0).val, (i 0).isLt⟩ : Fin 1000000) (0 : Fin 1)) :=
    shapeCast_apply _ hc i _ (by
      rw [Shape.rowMajor_val_two, Shape.rowMajor_val_one]
      show (i 0).val * 1 + 0 = (i 0).val
      omega)
  rw [e1]
  simp only [Host.reduceAdd, Ideal.hostReduceAdd_def]
  rw [Ideal.hostReduceAdd_single hr (by decide)]
  unfold scores
  rw [show constant (F := Ideal) S_ .f32 0x00000000#32 (Shape.Idx.first hS) = 0 from Ideal.ofBits_zero_f32, zero_add]
  refine Finset.sum_congr rfl fun k _ => ?_
  rw [mulf_apply]
  congr 1 <;> exact congrArg _ (funext fun a => Fin.ext (by match a with | ⟨0, _⟩ => rfl | ⟨1, _⟩ => rfl))

end Cert.KernelIdeal.Score

end
-- ==== Proof.Stretches.lean ====
/-
  The whole-array operations between the tiled kernels, one stretch at a time.

  The program's operations outside its kernels are the reference's own: the edge list with one loop per node
  appended, the in-degree count, 1 / sqrt (max (degree, 1)), the per-edge weight as the product of the two end
  nodes' factors, the gather of source rows scaled by the weight, the scatter-add onto target rows, the bias vector
  laid out as one row, the gathers of both end nodes' embeddings for the scored pairs, and the last change of layout.
  Each lemma reads one buffer after a stretch, from ANY contents W before it, as the reference's stage of the same
  name; where the stretch reads a buffer written before it, a hypothesis says what that buffer holds.  The kernel
  computes the per-edge weight once and uses it in both layers; the reference computes it twice from the same
  arrays, so its second copy is the first.  Nothing is evaluated: both sides are the same operations on the same
  operands.
-/
import proofs.«146141_j7069516169728_1_alg».proof.Proof.Gen.KernelIdeal.Frame
import proofs.«146141_j7069516169728_1_alg».proof.Proof.Gen.ReferenceIdeal.Read

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen Cert.ReferenceIdeal.Read

variable {F : FTy → Type} [FloatOps F]

attribute [local irreducible] Host.gather Host.scatterAdd Host.reduceAdd

/-! ## Before the first kernel: the edge list with loops and the per-edge weights -/

/-- The source list: the edges' sources followed by one loop per node. -/
theorem first_sources (W : Valuation τ sig (Elt F)) :
    after hostOps0 W (Proc.devRef .tc main_v5) = val_main_v5 (F := F) (W (Proc.devRef .tc main_arg1)) := by
  after_results_simp
  rfl

/-- The target list: the edges' targets followed by one loop per node. -/
theorem first_targets (W : Valuation τ sig (Elt F)) :
    after hostOps0 W (Proc.devRef .tc main_v6) = val_main_v6 (F := F) (W (Proc.devRef .tc main_arg1)) := by
  after_results_simp
  rfl

/-- The per-edge weight: 1 / sqrt (max (in-degree, 1)) at the source times the same at the target. -/
theorem first_weights (W : Valuation τ sig (Elt F)) :
    after hostOps0 W (Proc.devRef .tc main_v28) = val_main_v28 (F := F) (W (Proc.devRef .tc main_arg1)) := by
  after_results_simp
  rfl

/-- The first stretch writes no argument array. -/
theorem first_keeps_arg0 (W : Valuation τ sig (Elt F)) :
    after hostOps0 W (Proc.devRef .tc main_arg0) = W (Proc.devRef .tc main_arg0) := by
  after_results_simp

/-- The first stretch writes no argument array. -/
theorem first_keeps_arg2 (W : Valuation τ sig (Elt F)) :
    after hostOps0 W (Proc.devRef .tc main_arg2) = W (Proc.devRef .tc main_arg2) := by
  after_results_simp

/-- The first stretch writes no argument array. -/
theorem first_keeps_arg3 (W : Valuation τ sig (Elt F)) :
    after hostOps0 W (Proc.devRef .tc main_arg3) = W (Proc.devRef .tc main_arg3) := by
  after_results_simp

/-- The first stretch writes no argument array. -/
theorem first_keeps_arg4 (W : Valuation τ sig (Elt F)) :
    after hostOps0 W (Proc.devRef .tc main_arg4) = W (Proc.devRef .tc main_arg4) := by
  after_results_simp

/-- The first stretch writes no argument array. -/
theorem first_keeps_arg5 (W : Valuation τ sig (Elt F)) :
    after hostOps0 W (Proc.devRef .tc main_arg5) = W (Proc.devRef .tc main_arg5) := by
  after_results_simp

/-- The first stretch writes no argument array. -/
theorem first_keeps_arg6 (W : Valuation τ sig (Elt F)) :
    after hostOps0 W (Proc.devRef .tc main_arg6) = W (Proc.devRef .tc main_arg6) := by
  after_results_simp

/-- The first stretch writes no argument array. -/
theorem first_keeps_arg7 (W : Valuation τ sig (Elt F)) :
    after hostOps0 W (Proc.devRef .tc main_arg7) = W (Proc.devRef .tc main_arg7) := by
  after_results_simp

/-! ## Between the first product and the first bias: gather, scale, scatter-add -/

/-- The first layer's aggregation: rows of the product gathered by source, scaled by the weight, added onto targets. -/
theorem second_aggregate (W : Valuation τ sig (Elt F)) (x0 : (⟨Cert.ReferenceIdeal.S100000x128, .f32⟩ : BufTy).Contents (Elt F)) (x1 : (⟨Cert.ReferenceIdeal.S2x1600000, .i32⟩ : BufTy).Contents (Elt F)) (x4 : (⟨Cert.ReferenceIdeal.S128x128, .f32⟩ : BufTy).Contents (Elt F))
    (h29 : W (Proc.devRef .tc main_v29) = val_main_v29 (F := F) x0 x4)
    (h28 : W (Proc.devRef .tc main_v28) = val_main_v28 (F := F) x1)
    (h5 : W (Proc.devRef .tc main_v5) = val_main_v5 (F := F) x1)
    (h6 : W (Proc.devRef .tc main_v6) = val_main_v6 (F := F) x1) :
    after hostOps1 W (Proc.devRef .tc main_v42) = val_main_v42 (F := F) x0 x1 x4 := by
  after_results_simp
  rw [h29, h28, h5, h6]
  rfl

/-- The first bias vector laid out as one row. -/
theorem second_biasRow (W : Valuation τ sig (Elt F)) :
    after hostOps1 W (Proc.devRef .tc main_v43)
      = shapeCast S1x128 (W (Proc.devRef .tc main_arg5) : (⟨S128, .f32⟩ : BufTy).Contents (Elt F)) shapeCasts_S128_S1x128 := by
  after_results_simp
  rfl

/-- The second stretch leaves this buffer as it found it. -/
theorem second_keeps_v5 (W : Valuation τ sig (Elt F)) :
    after hostOps1 W (Proc.devRef .tc main_v5) = W (Proc.devRef .tc main_v5) := by
  after_results_simp

/-- The second stretch leaves this buffer as it found it. -/
theorem second_keeps_v6 (W : Valuation τ sig (Elt F)) :
    after hostOps1 W (Proc.devRef .tc main_v6) = W (Proc.devRef .tc main_v6) := by
  after_results_simp

/-- The second stretch leaves this buffer as it found it. -/
theorem second_keeps_v28 (W : Valuation τ sig (Elt F)) :
    after hostOps1 W (Proc.devRef .tc main_v28) = W (Proc.devRef .tc main_v28) := by
  after_results_simp

/-- The second stretch leaves this buffer as it found it. -/
theorem second_keeps_arg2 (W : Valuation τ sig (Elt F)) :
    after hostOps1 W (Proc.devRef .tc main_arg2) = W (Proc.devRef .tc main_arg2) := by
  after_results_simp

/-- The second stretch leaves this buffer as it found it. -/
theorem second_keeps_arg3 (W : Valuation τ sig (Elt F)) :
    after hostOps1 W (Proc.devRef .tc main_arg3) = W (Proc.devRef .tc main_arg3) := by
  after_results_simp

/-- The second stretch leaves this buffer as it found it. -/
theorem second_keeps_arg6 (W : Valuation τ sig (Elt F)) :
    after hostOps1 W (Proc.devRef .tc main_arg6) = W (Proc.devRef .tc main_arg6) := by
  after_results_simp

/-- The second stretch leaves this buffer as it found it. -/
theorem second_keeps_arg7 (W : Valuation τ sig (Elt F)) :
    after hostOps1 W (Proc.devRef .tc main_arg7) = W (Proc.devRef .tc main_arg7) := by
  after_results_simp

/-! ## Between the second product and the second bias: the same aggregation with the same weights -/

/-- The second layer's aggregation.  The reference recomputes the edge list and the weights for its second layer
    from the same index array; they are the first layer's. -/
theorem third_aggregate (W : Valuation τ sig (Elt F)) (x0 : (⟨Cert.ReferenceIdeal.S100000x128, .f32⟩ : BufTy).Contents (Elt F)) (x1 : (⟨Cert.ReferenceIdeal.S2x1600000, .i32⟩ : BufTy).Contents (Elt F)) (x4 : (⟨Cert.ReferenceIdeal.S128x128, .f32⟩ : BufTy).Contents (Elt F)) (x5 : (⟨Cert.ReferenceIdeal.S128, .f32⟩ : BufTy).Contents (Elt F)) (x6 : (⟨Cert.ReferenceIdeal.S128x64, .f32⟩ : BufTy).Contents (Elt F))
    (h45 : W (Proc.devRef .tc main_v45) = val_main_v72 (F := F) x0 x1 x4 x5 x6)
    (h28 : W (Proc.devRef .tc main_v28) = val_main_v28 (F := F) x1)
    (h5 : W (Proc.devRef .tc main_v5) = val_main_v5 (F := F) x1)
    (h6 : W (Proc.devRef .tc main_v6) = val_main_v6 (F := F) x1) :
    after hostOps3 W (Proc.devRef .tc main_v58) = val_main_v85 (F := F) x0 x1 x4 x5 x6 := by
  after_results_simp
  rw [h45, h28, h5, h6]
  rfl

/-- The second bias vector laid out as one row. -/
theorem third_biasRow (W : Valuation τ sig (Elt F)) :
    after hostOps3 W (Proc.devRef .tc main_v59)
      = shapeCast S1x64 (W (Proc.devRef .tc main_arg7) : (⟨S64, .f32⟩ : BufTy).Contents (Elt F)) shapeCasts_S64_S1x64 := by
  after_results_simp
  rfl

/-- The third stretch leaves this buffer as it found it. -/
theorem third_keeps_arg2 (W : Valuation τ sig (Elt F)) :
    after hostOps3 W (Proc.devRef .tc main_arg2) = W (Proc.devRef .tc main_arg2) := by
  after_results_simp

/-- The third stretch leaves this buffer as it found it. -/
theorem third_keeps_arg3 (W : Valuation τ sig (Elt F)) :
    after hostOps3 W (Proc.devRef .tc main_arg3) = W (Proc.devRef .tc main_arg3) := by
  after_results_simp

/-! ## Before the scoring kernel: both end nodes' embeddings of every scored pair -/

/-- The embeddings of the pairs' first nodes. -/
theorem fourth_firstEnds (W : Valuation τ sig (Elt F)) (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S2x500000, .i32⟩ : BufTy).Contents (Elt F)) (x3 : (⟨Cert.ReferenceIdeal.S2x500000, .i32⟩ : BufTy).Contents (Elt F)) (x4 : (⟨Cert.ReferenceIdeal.S128x128, .f32⟩ : BufTy).Contents (Elt F)) (x5 : (⟨Cert.ReferenceIdeal.S128, .f32⟩ : BufTy).Contents (Elt F)) (x6 : (⟨Cert.ReferenceIdeal.S128x64, .f32⟩ : BufTy).Contents (Elt F)) (x7 : (⟨Cert.ReferenceIdeal.S64, .f32⟩ : BufTy).Contents (Elt F))
    (h60 : W (Proc.devRef .tc main_v60) = val_main_v88 (F := F) x0 x1 x4 x5 x6 x7)
    (h2 : W (Proc.devRef .tc main_arg2) = x2) (h3 : W (Proc.devRef .tc main_arg3) = x3) :
    after hostOps4 W (Proc.devRef .tc main_v70) = val_main_v98 (F := F) x0 x1 x2 x3 x4 x5 x6 x7 := by
  after_results_simp
  rw [h60, h2, h3]
  rfl

/-- The embeddings of the pairs' second nodes. -/
theorem fourth_secondEnds (W : Valuation τ sig (Elt F)) (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S2x500000, .i32⟩ : BufTy).Contents (Elt F)) (x3 : (⟨Cert.ReferenceIdeal.S2x500000, .i32⟩ : BufTy).Contents (Elt F)) (x4 : (⟨Cert.ReferenceIdeal.S128x128, .f32⟩ : BufTy).Contents (Elt F)) (x5 : (⟨Cert.ReferenceIdeal.S128, .f32⟩ : BufTy).Contents (Elt F)) (x6 : (⟨Cert.ReferenceIdeal.S128x64, .f32⟩ : BufTy).Contents (Elt F)) (x7 : (⟨Cert.ReferenceIdeal.S64, .f32⟩ : BufTy).Contents (Elt F))
    (h60 : W (Proc.devRef .tc main_v60) = val_main_v88 (F := F) x0 x1 x4 x5 x6 x7)
    (h2 : W (Proc.devRef .tc main_arg2) = x2) (h3 : W (Proc.devRef .tc main_arg3) = x3) :
    after hostOps4 W (Proc.devRef .tc main_v79) = val_main_v107 (F := F) x0 x1 x2 x3 x4 x5 x6 x7 := by
  after_results_simp
  rw [h60, h2, h3]
  rfl

/-! ## After the scoring kernel: the column of scores as a vector -/

theorem fifth_scores (W : Valuation τ sig (Elt F)) :
    after hostOps5 W (Proc.devRef .tc main_v81)
      = shapeCast S1000000 (W (Proc.devRef .tc main_v80) : (⟨S1000000x1, .f32⟩ : BufTy).Contents (Elt F)) shapeCasts_S1000000x1_S1000000 := by
  after_results_simp
  rfl

end Cert.KernelIdeal.Stretch

end
-- ==== Proof.Chain.lean ====
/-
  The kernel program's buffers, boundary by boundary, as the reference's stages.

  The program runs ten segments.  After each one, the buffers the later segments read hold the reference's stage
  of the same meaning, as a function of the launched argument arrays: the edge lists and per-edge weights after the
  first stretch; X · W₁ after the first product; the first aggregation and the bias row after the second stretch;
  max (aggregation + bias, 0) after the first bias kernel; its product with W₂; the second aggregation, with the
  same weights; aggregation + bias, the node embeddings; both end nodes' embeddings of every scored pair; the column
  of their inner products; and the column as a vector, the returned value.  A tiled kernel changes only its output
  array and a stretch only the buffers it writes, so every other buffer is carried along unchanged.  A bias vector laid
  out as one row by a change of shape is the same row as the vector broadcast along a new leading axis, which is how
  the reference spells it.
-/
import proofs.«146141_j7069516169728_1_alg».proof.Proof.Product1
import proofs.«146141_j7069516169728_1_alg».proof.Proof.Product2
import proofs.«146141_j7069516169728_1_alg».proof.Proof.BiasRelu
import proofs.«146141_j7069516169728_1_alg».proof.Proof.BiasAdd
import proofs.«146141_j7069516169728_1_alg».proof.Proof.Score
import proofs.«146141_j7069516169728_1_alg».proof.Proof.Stretches

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

/-! ## After the first stretch -/

theorem b1_v5 : W1 m ρ c (Proc.devRef .tc main_v5) = val_main_v5 (F := Ideal) (m ((c : Thread nD τ).loc main_arg1)) := Stretch.first_sources (W0 m ρ c)
theorem b1_v6 : W1 m ρ c (Proc.devRef .tc main_v6) = val_main_v6 (F := Ideal) (m ((c : Thread nD τ).loc main_arg1)) := Stretch.first_targets (W0 m ρ c)
theorem b1_v28 : W1 m ρ c (Proc.devRef .tc main_v28) = val_main_v28 (F := Ideal) (m ((c : Thread nD τ).loc main_arg1)) := Stretch.first_weights (W0 m ρ c)
theorem b1_arg0 : W1 m ρ c (Proc.devRef .tc main_arg0) = (m ((c : Thread nD τ).loc main_arg0)) := Stretch.first_keeps_arg0 (W0 m ρ c)
theorem b1_arg2 : W1 m ρ c (Proc.devRef .tc main_arg2) = (m ((c : Thread nD τ).loc main_arg2)) := Stretch.first_keeps_arg2 (W0 m ρ c)
theorem b1_arg3 : W1 m ρ c (Proc.devRef .tc main_arg3) = (m ((c : Thread nD τ).loc main_arg3)) := Stretch.first_keeps_arg3 (W0 m ρ c)
theorem b1_arg4 : W1 m ρ c (Proc.devRef .tc main_arg4) = (m ((c : Thread nD τ).loc main_arg4)) := Stretch.first_keeps_arg4 (W0 m ρ c)
theorem b1_arg5 : W1 m ρ c (Proc.devRef .tc main_arg5) = (m ((c : Thread nD τ).loc main_arg5)) := Stretch.first_keeps_arg5 (W0 m ρ c)
theorem b1_arg6 : W1 m ρ c (Proc.devRef .tc main_arg6) = (m ((c : Thread nD τ).loc main_arg6)) := Stretch.first_keeps_arg6 (W0 m ρ c)
theorem b1_arg7 : W1 m ρ c (Proc.devRef .tc main_arg7) = (m ((c : Thread nD τ).loc main_arg7)) := Stretch.first_keeps_arg7 (W0 m ρ c)

/-! ## After the first product -/

theorem b2_v29 : W2 m ρ c (Proc.devRef .tc main_v29) = val_main_v29 (F := Ideal) (m ((c : Thread nD τ).loc main_arg0)) (m ((c : Thread nD τ).loc main_arg4)) := by
  refine (W2_arr m ρ c 2).trans ?_
  refine (RegionValue.product0 (V1 m ρ) Cert.ReferenceIdeal.dot_S100000x128_S128x128_S100000x128_1_0_0_1_n_n rfl c).trans ?_
  unfold val_main_v29
  exact congrArg₂ (fun (a : FVec Ideal S100000x128 .f32) (b : FVec Ideal S128x128 .f32) =>
    Host.dotGeneral (F := Ideal) Cert.ReferenceIdeal.dot_S100000x128_S128x128_S100000x128_1_0_0_1_n_n none a b) (b1_arg0 m ρ c) (b1_arg4 m ρ c)
theorem b2_v5 : W2 m ρ c (Proc.devRef .tc main_v5) = val_main_v5 (F := Ideal) (m ((c : Thread nD τ).loc main_arg1)) := (W2_of_ne m ρ c main_v5 (by decide)).trans (b1_v5 m ρ c)
theorem b2_v6 : W2 m ρ c (Proc.devRef .tc main_v6) = val_main_v6 (F := Ideal) (m ((c : Thread nD τ).loc main_arg1)) := (W2_of_ne m ρ c main_v6 (by decide)).trans (b1_v6 m ρ c)
theorem b2_v28 : W2 m ρ c (Proc.devRef .tc main_v28) = val_main_v28 (F := Ideal) (m ((c : Thread nD τ).loc main_arg1)) := (W2_of_ne m ρ c main_v28 (by decide)).trans (b1_v28 m ρ c)
theorem b2_arg2 : W2 m ρ c (Proc.devRef .tc main_arg2) = (m ((c : Thread nD τ).loc main_arg2)) := (W2_of_ne m ρ c main_arg2 (by decide)).trans (b1_arg2 m ρ c)
theorem b2_arg3 : W2 m ρ c (Proc.devRef .tc main_arg3) = (m ((c : Thread nD τ).loc main_arg3)) := (W2_of_ne m ρ c main_arg3 (by decide)).trans (b1_arg3 m ρ c)
theorem b2_arg5 : W2 m ρ c (Proc.devRef .tc main_arg5) = (m ((c : Thread nD τ).loc main_arg5)) := (W2_of_ne m ρ c main_arg5 (by decide)).trans (b1_arg5 m ρ c)
theorem b2_arg6 : W2 m ρ c (Proc.devRef .tc main_arg6) = (m ((c : Thread nD τ).loc main_arg6)) := (W2_of_ne m ρ c main_arg6 (by decide)).trans (b1_arg6 m ρ c)
theorem b2_arg7 : W2 m ρ c (Proc.devRef .tc main_arg7) = (m ((c : Thread nD τ).loc main_arg7)) := (W2_of_ne m ρ c main_arg7 (by decide)).trans (b1_arg7 m ρ c)

/-! ## After the second stretch -/

theorem b3_v42 : W3 m ρ c (Proc.devRef .tc main_v42) = val_main_v42 (F := Ideal) (m ((c : Thread nD τ).loc main_arg0)) (m ((c : Thread nD τ).loc main_arg1)) (m ((c : Thread nD τ).loc main_arg4)) :=
  Stretch.second_aggregate (W2 m ρ c) _ _ _ (b2_v29 m ρ c) (b2_v28 m ρ c) (b2_v5 m ρ c) (b2_v6 m ρ c)
theorem b3_v43 : W3 m ρ c (Proc.devRef .tc main_v43)
    = shapeCast S1x128 ((m ((c : Thread nD τ).loc main_arg5)) : (⟨S128, .f32⟩ : BufTy).Contents (Elt Ideal)) shapeCasts_S128_S1x128 :=
  (Stretch.second_biasRow (W2 m ρ c)).trans
    (congrArg (fun a : (⟨S128, .f32⟩ : BufTy).Contents (Elt Ideal) => shapeCast S1x128 a shapeCasts_S128_S1x128) (b2_arg5 m ρ c))
theorem b3_v5 : W3 m ρ c (Proc.devRef .tc main_v5) = val_main_v5 (F := Ideal) (m ((c : Thread nD τ).loc main_arg1)) := (Stretch.second_keeps_v5 (W2 m ρ c)).trans (b2_v5 m ρ c)
theorem b3_v6 : W3 m ρ c (Proc.devRef .tc main_v6) = val_main_v6 (F := Ideal) (m ((c : Thread nD τ).loc main_arg1)) := (Stretch.second_keeps_v6 (W2 m ρ c)).trans (b2_v6 m ρ c)
theorem b3_v28 : W3 m ρ c (Proc.devRef .tc main_v28) = val_main_v28 (F := Ideal) (m ((c : Thread nD τ).loc main_arg1)) := (Stretch.second_keeps_v28 (W2 m ρ c)).trans (b2_v28 m ρ c)
theorem b3_arg2 : W3 m ρ c (Proc.devRef .tc main_arg2) = (m ((c : Thread nD τ).loc main_arg2)) := (Stretch.second_keeps_arg2 (W2 m ρ c)).trans (b2_arg2 m ρ c)
theorem b3_arg3 : W3 m ρ c (Proc.devRef .tc main_arg3) = (m ((c : Thread nD τ).loc main_arg3)) := (Stretch.second_keeps_arg3 (W2 m ρ c)).trans (b2_arg3 m ρ c)
theorem b3_arg6 : W3 m ρ c (Proc.devRef .tc main_arg6) = (m ((c : Thread nD τ).loc main_arg6)) := (Stretch.second_keeps_arg6 (W2 m ρ c)).trans (b2_arg6 m ρ c)
theorem b3_arg7 : W3 m ρ c (Proc.devRef .tc main_arg7) = (m ((c : Thread nD τ).loc main_arg7)) := (Stretch.second_keeps_arg7 (W2 m ρ c)).trans (b2_arg7 m ρ c)

/-! ## After the first bias kernel -/

theorem b4_v44 : W4 m ρ c (Proc.devRef .tc main_v44) = val_main_v46 (F := Ideal) (m ((c : Thread nD τ).loc main_arg0)) (m ((c : Thread nD τ).loc main_arg1)) (m ((c : Thread nD τ).loc main_arg4)) (m ((c : Thread nD τ).loc main_arg5)) := by
  refine (W4_arr m ρ c 2).trans ?_
  refine (BiasRelu.value (V3 m ρ) Cert.ReferenceIdeal.Facts₀.bcast_S1x128_S100000x128_0_1 Cert.ReferenceIdeal.Facts₀.bcast_S_S100000x128 c).trans ?_
  refine (congrArg₂ (BiasRelu.whole Cert.ReferenceIdeal.Facts₀.bcast_S1x128_S100000x128_0_1 Cert.ReferenceIdeal.Facts₀.bcast_S_S100000x128)
    (b3_v42 m ρ c) (b3_v43 m ρ c)).trans ?_
  unfold BiasRelu.whole
  rw [Cert.Bridge.reshapeRow_eq (C := 128) _ shapeCasts_S128_S1x128 Cert.ReferenceIdeal.Facts₀.bcast_S128_S1x128_1]
  rfl
theorem b4_v5 : W4 m ρ c (Proc.devRef .tc main_v5) = val_main_v5 (F := Ideal) (m ((c : Thread nD τ).loc main_arg1)) := (W4_of_ne m ρ c main_v5 (by decide)).trans (b3_v5 m ρ c)
theorem b4_v6 : W4 m ρ c (Proc.devRef .tc main_v6) = val_main_v6 (F := Ideal) (m ((c : Thread nD τ).loc main_arg1)) := (W4_of_ne m ρ c main_v6 (by decide)).trans (b3_v6 m ρ c)
theorem b4_v28 : W4 m ρ c (Proc.devRef .tc main_v28) = val_main_v28 (F := Ideal) (m ((c : Thread nD τ).loc main_arg1)) := (W4_of_ne m ρ c main_v28 (by decide)).trans (b3_v28 m ρ c)
theorem b4_arg2 : W4 m ρ c (Proc.devRef .tc main_arg2) = (m ((c : Thread nD τ).loc main_arg2)) := (W4_of_ne m ρ c main_arg2 (by decide)).trans (b3_arg2 m ρ c)
theorem b4_arg3 : W4 m ρ c (Proc.devRef .tc main_arg3) = (m ((c : Thread nD τ).loc main_arg3)) := (W4_of_ne m ρ c main_arg3 (by decide)).trans (b3_arg3 m ρ c)
theorem b4_arg6 : W4 m ρ c (Proc.devRef .tc main_arg6) = (m ((c : Thread nD τ).loc main_arg6)) := (W4_of_ne m ρ c main_arg6 (by decide)).trans (b3_arg6 m ρ c)
theorem b4_arg7 : W4 m ρ c (Proc.devRef .tc main_arg7) = (m ((c : Thread nD τ).loc main_arg7)) := (W4_of_ne m ρ c main_arg7 (by decide)).trans (b3_arg7 m ρ c)

/-! ## After the second product -/

theorem b5_v45 : W5 m ρ c (Proc.devRef .tc main_v45) = val_main_v72 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W5_arr m ρ c 2).trans ?_
  refine (RegionValue2.product2 (V4 m ρ) Cert.ReferenceIdeal.dot_S100000x128_S128x64_S100000x64_1_0_0_1_n_n rfl c).trans ?_
  unfold val_main_v72
  exact congrArg₂ (fun (a : FVec Ideal S100000x128 .f32) (b : FVec Ideal S128x64 .f32) =>
    Host.dotGeneral (F := Ideal) Cert.ReferenceIdeal.dot_S100000x128_S128x64_S100000x64_1_0_0_1_n_n none a b) (b4_v44 m ρ c) (b4_arg6 m ρ c)
theorem b5_v5 : W5 m ρ c (Proc.devRef .tc main_v5) = val_main_v5 (F := Ideal) (m ((c : Thread nD τ).loc main_arg1)) := (W5_of_ne m ρ c main_v5 (by decide)).trans (b4_v5 m ρ c)
theorem b5_v6 : W5 m ρ c (Proc.devRef .tc main_v6) = val_main_v6 (F := Ideal) (m ((c : Thread nD τ).loc main_arg1)) := (W5_of_ne m ρ c main_v6 (by decide)).trans (b4_v6 m ρ c)
theorem b5_v28 : W5 m ρ c (Proc.devRef .tc main_v28) = val_main_v28 (F := Ideal) (m ((c : Thread nD τ).loc main_arg1)) := (W5_of_ne m ρ c main_v28 (by decide)).trans (b4_v28 m ρ c)
theorem b5_arg2 : W5 m ρ c (Proc.devRef .tc main_arg2) = (m ((c : Thread nD τ).loc main_arg2)) := (W5_of_ne m ρ c main_arg2 (by decide)).trans (b4_arg2 m ρ c)
theorem b5_arg3 : W5 m ρ c (Proc.devRef .tc main_arg3) = (m ((c : Thread nD τ).loc main_arg3)) := (W5_of_ne m ρ c main_arg3 (by decide)).trans (b4_arg3 m ρ c)
theorem b5_arg7 : W5 m ρ c (Proc.devRef .tc main_arg7) = (m ((c : Thread nD τ).loc main_arg7)) := (W5_of_ne m ρ c main_arg7 (by decide)).trans (b4_arg7 m ρ c)

/-! ## After the third stretch -/

theorem b6_v58 : W6 m ρ c (Proc.devRef .tc main_v58) = val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) :=
  Stretch.third_aggregate (W5 m ρ c) _ _ _ _ _ (b5_v45 m ρ c) (b5_v28 m ρ c) (b5_v5 m ρ c) (b5_v6 m ρ c)
theorem b6_v59 : W6 m ρ c (Proc.devRef .tc main_v59)
    = shapeCast S1x64 ((m ((c : Thread nD τ).loc main_arg7)) : (⟨S64, .f32⟩ : BufTy).Contents (Elt Ideal)) shapeCasts_S64_S1x64 :=
  (Stretch.third_biasRow (W5 m ρ c)).trans
    (congrArg (fun a : (⟨S64, .f32⟩ : BufTy).Contents (Elt Ideal) => shapeCast S1x64 a shapeCasts_S64_S1x64) (b5_arg7 m ρ c))
theorem b6_arg2 : W6 m ρ c (Proc.devRef .tc main_arg2) = (m ((c : Thread nD τ).loc main_arg2)) := (Stretch.third_keeps_arg2 (W5 m ρ c)).trans (b5_arg2 m ρ c)
theorem b6_arg3 : W6 m ρ c (Proc.devRef .tc main_arg3) = (m ((c : Thread nD τ).loc main_arg3)) := (Stretch.third_keeps_arg3 (W5 m ρ c)).trans (b5_arg3 m ρ c)

/-! ## After the second bias kernel: the node embeddings -/

theorem b7_v60 : W7 m ρ c (Proc.devRef .tc main_v60) = val_main_v88 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W7_arr m ρ c 2).trans ?_
  refine (BiasAdd.value (V6 m ρ) Cert.ReferenceIdeal.Facts₀.bcast_S1x64_S100000x64_0_1 c).trans ?_
  refine (congrArg₂ (BiasAdd.whole Cert.ReferenceIdeal.Facts₀.bcast_S1x64_S100000x64_0_1) (b6_v58 m ρ c) (b6_v59 m ρ c)).trans ?_
  unfold BiasAdd.whole
  rw [Cert.Bridge.reshapeRow_eq (C := 64) _ shapeCasts_S64_S1x64 Cert.ReferenceIdeal.Facts₀.bcast_S64_S1x64_1]
  rfl
theorem b7_arg2 : W7 m ρ c (Proc.devRef .tc main_arg2) = (m ((c : Thread nD τ).loc main_arg2)) := (W7_of_ne m ρ c main_arg2 (by decide)).trans (b6_arg2 m ρ c)
theorem b7_arg3 : W7 m ρ c (Proc.devRef .tc main_arg3) = (m ((c : Thread nD τ).loc main_arg3)) := (W7_of_ne m ρ c main_arg3 (by decide)).trans (b6_arg3 m ρ c)

/-! ## After the fourth stretch: the scored pairs' embeddings -/

theorem b8_v70 : W8 m ρ c (Proc.devRef .tc main_v70) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Stretch.fourth_firstEnds (W7 m ρ c) _ _ _ _ _ _ _ _ (b7_v60 m ρ c) (b7_arg2 m ρ c) (b7_arg3 m ρ c)
theorem b8_v79 : W8 m ρ c (Proc.devRef .tc main_v79) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Stretch.fourth_secondEnds (W7 m ρ c) _ _ _ _ _ _ _ _ (b7_v60 m ρ c) (b7_arg2 m ρ c) (b7_arg3 m ρ c)

/-! ## After the scoring kernel, and the returned value -/

theorem b9_v80 : W9 m ρ c (Proc.devRef .tc main_v80)
    = Score.scores (val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W9_arr m ρ c 2).trans ((Score.value (V8 m ρ) c).trans (congrArg₂ Score.scores (b8_v70 m ρ c) (b8_v79 m ρ c)))

/-- The returned buffer holds the reference's result as a function of the launched arguments. -/
theorem result : W10 m ρ c (Proc.devRef .tc main_v81) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (Stretch.fifth_scores (W9 m ρ c)).trans ?_
  refine (congrArg (fun a : (⟨S1000000x1, .f32⟩ : BufTy).Contents (Elt Ideal) => shapeCast S1000000 a shapeCasts_S1000000x1_S1000000) (b9_v80 m ρ c)).trans ?_
  refine (Score.scores_vector _ _ shapeCasts_S1000000x1_S1000000 Cert.ReferenceIdeal.Facts₀.reducesTo_S1000000x64_S1000000_d1 Cert.ReferenceIdeal.Facts₀.h_S_).trans ?_
  unfold val_main_v109 val_main_v108 val_main_cst_22
  rfl

end Cert.KernelIdeal.Chain

end
-- ==== Proof.lean ====
/-
  A two-layer graph convolution encoder with an inner-product decoder: the tiled program against its reference,
  equal on the extended reals.

  Both programs build the edge list with one loop per node, count in-degrees, weight edge (s, d) by
  1 / sqrt (max (deg s, 1)) · 1 / sqrt (max (deg d, 1)), and compute twice
      out = scatter-add over targets of (X · W)[source] · weight, plus the bias,
  with max (·, 0) between the layers; the score of a pair (a, b) is the sum over the 64 features of z[a] · z[b].
  The tiled program computes the two products X · W, the two bias steps and the scores in kernels over blocks of 2000
  rows, and everything else by the reference's own whole-array operations.  Each kernel's blocks are the blocks of
  one whole-array computation and tile its result (a product's entry depends on one row of the left factor; the bias
  steps act entry by entry; a row's score reads that row only), a change of number format is the identity on the
  extended reals, a product into a zero accumulator is the plain sum over the contracted index, and a row sum from a
  zero accumulator is 0 plus that sum.  So after every segment of the tiled program each buffer holds the reference's
  stage of the same meaning, and the returned vectors agree.  No step uses distributivity or cancellation: the
  equality holds at every extended real, and the finiteness of the inputs is not used.
-/
import proofs.«146141_j7069516169728_1_alg».proof.Defs
import proofs.«146141_j7069516169728_1_alg».proof.Proof.Gen.Kernel
import proofs.«146141_j7069516169728_1_alg».proof.Proof.Gen.Kernel.Skeleton
import proofs.«146141_j7069516169728_1_alg».proof.Proof.Gen.Kernel.Launch
import proofs.«146141_j7069516169728_1_alg».proof.Proof.Gen.Kernel.Points
import proofs.«146141_j7069516169728_1_alg».proof.Proof.Gen.Kernel.Frame
import proofs.«146141_j7069516169728_1_alg».proof.Proof.Gen.KernelIdeal
import proofs.«146141_j7069516169728_1_alg».proof.Proof.Gen.KernelIdeal.Skeleton
import proofs.«146141_j7069516169728_1_alg».proof.Proof.Gen.KernelIdeal.Launch
import proofs.«146141_j7069516169728_1_alg».proof.Proof.Gen.KernelIdeal.Points
import proofs.«146141_j7069516169728_1_alg».proof.Proof.Gen.KernelIdeal.Frame
import proofs.«146141_j7069516169728_1_alg».proof.Proof.Gen.ReferenceIdeal
import proofs.«146141_j7069516169728_1_alg».proof.Proof.Gen.ReferenceIdeal.Run
import proofs.«146141_j7069516169728_1_alg».proof.Proof.Gen.ReferenceIdeal.Read
import proofs.«146141_j7069516169728_1_alg».proof.Proof.Gen.Pre_finite_inputs
import proofs.«146141_j7069516169728_1_alg».proof.Proof.KernelRun
import proofs.«146141_j7069516169728_1_alg».proof.Proof.Chain
import Idealize.ShloMosaic.Adequacy
import Idealize.ShloMosaic.Init

noncomputable section

namespace Cert.Proof

open Idealize.ShloMosaic Idealize.SL.Sem

/-- The word-level program terminates without a fault and leaves its arguments as launched. -/
theorem frame_kernel : @Cert.frame_Kernel Cert.Kernel.Gen.facts Cert.Pre_finite_inputs.Gen.facts :=
  fun m ρ _ => Cert.Kernel.Gen.frame m ρ

/-- So does the program read on the extended reals. -/
theorem frame_kernelIdeal : @Cert.frame_KernelIdeal Cert.KernelIdeal.Gen.facts Cert.Pre_finite_inputs.Gen.facts :=
  fun m ρ _ => Cert.KernelIdeal.Gen.frame m ρ

/-- The reference is whole-array operations only: its run, with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The tiled program's returned vector and the reference's are the same function of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Chain.result m ρ c), (h c).2⟩)
      (Cert.KernelIdeal.Run.run_result m ρ)
  · refine (θ_run Cert.ReferenceIdeal.defs _ _).mono (fun _ h c => ⟨?_, (h c).2⟩) (Cert.ReferenceIdeal.Value.run (F := Ideal) m' ρ')
    obtain ⟨e0, e1, e2, e3, e4, e5, e6, e7⟩ := hagree c
    refine (h c).1.trans ((Cert.ReferenceIdeal.Read.val_main_v109_eq m' c).trans ?_)
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
